-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S48x262144 : Shape := ⟨2, ![48, 262144]⟩
abbrev S48x4 : Shape := ⟨2, ![48, 4]⟩
abbrev S24x32768 : Shape := ⟨2, ![24, 32768]⟩
abbrev S24x4 : Shape := ⟨2, ![24, 4]⟩
abbrev S24x3 : Shape := ⟨2, ![24, 3]⟩
abbrev S24 : Shape := ⟨1, ![24]⟩
abbrev S24x1 : Shape := ⟨2, ![24, 1]⟩
abbrev S16x3x4 : Shape := ⟨3, ![16, 3, 4]⟩

abbrev nBuf : Space → Nat
  | .hbm => 6
  | .vmem => 7
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S48x262144, .f32⟩
  | .hbm, ⟨3, _⟩ => ⟨S48x262144, .f32⟩
  | .hbm, ⟨4, _⟩ => ⟨S48x4, .f32⟩
  | .hbm, ⟨5, _⟩ => ⟨S16x3x4, .f32⟩
  | .local _ .vmem, ⟨0, _⟩ => ⟨S24x32768, .f32⟩
  | .local _ .vmem, ⟨1, _⟩ => ⟨S24x32768, .f32⟩
  | .local _ .vmem, ⟨2, _⟩ => ⟨S24x32768, .f32⟩
  | .local _ .vmem, ⟨3, _⟩ => ⟨S24x32768, .f32⟩
  | .local _ .vmem, ⟨4, _⟩ => ⟨S24x4, .f32⟩
  | .local _ .vmem, ⟨5, _⟩ => ⟨S24x4, .f32⟩
  | .local _ .vmem, ⟨6, _⟩ => ⟨S24x3, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S24x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S24x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S24x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x3x512x512_S48x262144 : S16x3x512x512.ShapeCasts S48x262144
  inb_S24x3_S24x3_0_0 : ∀ a, (![0, 0] : Fin 2 → Nat) a + S24x3.size a ≤ S24x3.size a
  h_S24x3 : 0 < S24x3.numel
  shapeCasts_S24x3_S24x3 : S24x3.ShapeCasts S24x3
  inb_S24x32768_S24x32768_0_0 : ∀ a, (![0, 0] : Fin 2 → Nat) a + S24x32768.size a ≤ S24x32768.size a
  h_S24x32768 : 0 < S24x32768.numel
  shapeCasts_S24x32768_S24x32768 : S24x32768.ShapeCasts S24x32768
  reduces_S24x32768_S24 : S24x32768.Reduces [1] S24
  shapeCasts_S24_S24x1 : S24.ShapeCasts S24x1
  inb_S24x3_S24x1_0_0 : ∀ a, (![0, 0] : Fin 2 → Nat) a + S24x1.size a ≤ S24x3.size a
  h_S24x1 : 0 < S24x1.numel
  shapeCasts_S24x1_S24x1 : S24x1.ShapeCasts S24x1
  inb_S24x3_S24x1_0_1 : ∀ a, (![0, 1] : Fin 2 → Nat) a + S24x1.size a ≤ S24x3.size a
  inb_S24x3_S24x1_0_2 : ∀ a, (![0, 2] : Fin 2 → Nat) a + S24x1.size a ≤ S24x3.size a
  concatenates_S24x1_S24x1_S24x1_S24x1_S24x4_d1 : Shape.Concatenates [S24x1, S24x1, S24x1, S24x1] S24x4 1
  inb_S24x4_S24x4_0_0 : ∀ a, (![0, 0] : Fin 2 → Nat) a + S24x4.size a ≤ S24x4.size a
  h_S24x4 : 0 < S24x4.numel
  shapeCasts_S48x4_S16x3x4 : S48x4.ShapeCasts S16x3x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x32768.size a ≤ S48x262144.size a
  hwx0_0 : ∀ i : grid0.Coords, EltTy.bits .f32 = 32 ∨ (Rect.block (s := S48x262144) S24x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24x32768.size a ≤ S48x262144.size a
  hwx0_1 : ∀ i : grid0.Coords, EltTy.bits .f32 = 32 ∨ (Rect.block (s := S48x262144) S24x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S24x4.size a ≤ S48x4.size a
  hwx0_2 : ∀ i : grid0.Coords, EltTy.bits .f32 = 32 ∨ (Rect.block (s := S48x4) S24x4.size (cc0_transform_2 i) (hinb0_2 i)).WholeWords (EltTy.packing .f32)

variable [Facts₀]

abbrev win0_0 : Pipeline.Window sig grid0 :=
  Pipeline.Window.ofSpec (Memref.whole main_v0) S24x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S24x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S24x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x3x512x512 : Shape := ⟨4, ![16, 3, 512, 512]⟩
abbrev S16x3x262144 : Shape := ⟨3, ![16, 3, 262144]⟩
abbrev S_ : Shape := ⟨0, ![]⟩
abbrev S16x3 : Shape := ⟨2, ![16, 3]⟩
abbrev S16x3x1 : Shape := ⟨3, ![16, 3, 1]⟩
abbrev S16x3x4 : Shape := ⟨3, ![16, 3, 4]⟩

abbrev nBuf : Space → Nat
  | .hbm => 33
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x262144, .f32⟩
  | .hbm, ⟨3, _⟩ => ⟨S16x3x262144, .f32⟩
  | .hbm, ⟨4, _⟩ => ⟨S16x3x262144, .f32⟩
  | .hbm, ⟨5, _⟩ => ⟨S_, .f32⟩
  | .hbm, ⟨6, _⟩ => ⟨S16x3, .f32⟩
  | .hbm, ⟨7, _⟩ => ⟨S_, .f32⟩
  | .hbm, ⟨8, _⟩ => ⟨S16x3x262144, .f32⟩
  | .hbm, ⟨9, _⟩ => ⟨S16x3x262144, .f32⟩
  | .hbm, ⟨10, _⟩ => ⟨S_, .f32⟩
  | .hbm, ⟨11, _⟩ => ⟨S16x3x262144, .f32⟩
  | .hbm, ⟨12, _⟩ => ⟨S16x3x262144, .f32⟩
  | .hbm, ⟨13, _⟩ => ⟨S16x3x262144, .f32⟩
  | .hbm, ⟨14, _⟩ => ⟨S_, .f32⟩
  | .hbm, ⟨15, _⟩ => ⟨S16x3, .f32⟩
  | .hbm, ⟨16, _⟩ => ⟨S_, .f32⟩
  | .hbm, ⟨17, _⟩ => ⟨S16x3x262144, .f32⟩
  | .hbm, ⟨18, _⟩ => ⟨S16x3x262144, .f32⟩
  | .hbm, ⟨19, _⟩ => ⟨S16x3x262144, .f32⟩
  | .hbm, ⟨20, _⟩ => ⟨S_, .f32⟩
  | .hbm, ⟨21, _⟩ => ⟨S16x3, .f32⟩
  | .hbm, ⟨22, _⟩ => ⟨S_, .f32⟩
  | .hbm, ⟨23, _⟩ => ⟨S16x3x262144, .f32⟩
  | .hbm, ⟨24, _⟩ => ⟨S16x3x262144, .f32⟩
  | .hbm, ⟨25, _⟩ => ⟨S16x3x262144, .f32⟩
  | .hbm, ⟨26, _⟩ => ⟨S_, .f32⟩
  | .hbm, ⟨27, _⟩ => ⟨S16x3, .f32⟩
  | .hbm, ⟨28, _⟩ => ⟨S16x3x1, .f32⟩
  | .hbm, ⟨29, _⟩ => ⟨S16x3x1, .f32⟩
  | .hbm, ⟨30, _⟩ => ⟨S16x3x1, .f32⟩
  | .hbm, ⟨31, _⟩ => ⟨S16x3x1, .f32⟩
  | .hbm, ⟨32, _⟩ => ⟨S16x3x4, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  shapeCasts_S16x3x512x512_S16x3x262144 : S16x3x512x512.ShapeCasts S16x3x262144
  reducesTo_S16x3x262144_S16x3_d2 : S16x3x262144.ReducesTo [2] S16x3
  h_S_ : 0 < S_.numel
  bcast_S_S16x3x262144 : S_.BroadcastsInDim S16x3x262144 (![] : Fin 0 → Fin S16x3x262144.rank)
  bcast_S16x3_S16x3x1_0_1 : S16x3.BroadcastsInDim S16x3x1 (![0, 1] : Fin 2 → Fin S16x3x1.rank)
  concatenates_S16x3x1_S16x3x1_S16x3x1_S16x3x1_S16x3x4_d2 : Shape.Concatenates [S16x3x1, S16x3x1, S16x3x1, S16x3x1] S16x3x4 2

variable [Facts₀]

class Facts : Prop extends Facts₀ where

variable [Facts]
-- ==== Proof.LibPieces.lean ====
/-
  Two general facts used to read a buffer that was filled piece by piece, and one about a concatenation.

  * The contents left by a list of stores (newest first) through unit-stride rectangles, read at an index: if the index
    lies in the newest store's rectangle the contents there are that store's value at the local position; if it lies
    outside on some axis, the newest store does not matter.
  * A concatenation of four pieces of one shape whose extent along the joined axis is one, read at an index, is the
    piece named by the index's coordinate on that axis, at the index with that coordinate set to zero.
-/
import Idealize.ShloMosaic.Lib.Pipeline.Value
import Idealize.ShloMosaic.Lib.Pipeline.FrameBody

noncomputable section

namespace Cert.LibPieces

open Idealize.ShloMosaic

variable {Val : EltTy → Type} [∀ e, Nonempty (Val e)] {s : Shape} {e : EltTy}

/-- An index at local position `x` of the newest store's rectangle holds that store's value at `x`. -/
theorem canon_cons_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- An index outside the newest store's rectangle on axis `a` holds what the earlier stores left. -/
theorem canon_cons_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y :=
  View.canon_cons_of_not_mem _ L (by
    rw [Rect.mem_set_unit]
    intro h
    have := h a
    omega)

/-- Four pieces of one shape, each of extent one along the joined axis: the result at `j` is piece `n`, the
    coordinate of `j` on that axis, at the index `i` that agrees with `j` on every other axis. -/
theorem concatenate_four_unit_apply {α : Type} {t s₁ : Shape} (a : Fin t.rank) (x0 x1 x2 x3 : s₁.Idx → α)
    (h : Shape.Concatenates [s₁, s₁, s₁, s₁] t a)
    (hr : s₁.rank = t.rank) (h1 : s₁.size (a.cast hr.symm) = 1) (j : t.Idx) (n : Fin 4) (hn : (j a).val = n.val)
    (i : s₁.Idx) (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_unit_apply a (![x0, x1, x2, x3] : Fin 4 → s₁.Idx → α) h hr h1 j n hn i hi

end Cert.LibPieces

end
-- ==== Proof.Pieces.lean ====
/-
  What one run of the kernel body leaves behind, as values.

  The body keeps a [24, 3] accumulator whose three columns are running row sums: column 0 of the first operand's block,
  column 1 of the second operand's block, column 2 of their product. One run adds to each column the row sums of the
  current [24, 32768] blocks (`step`). At the first tile of a row block the accumulator is zeroed first, so the run leaves
  `step` of the zero block; at the last tile the [24, 4] output block is written from the three columns just updated.
  The body does this with three column stores; a column read back after the stores of the same run sees the store that
  wrote it, and a column not yet stored sees what was there before.
-/
import proofs.«146856_j31198642438436_2_alg».proof.Proof.Gen.KernelIdeal.Frame
import proofs.«146856_j31198642438436_2_alg».proof.Proof.LibPieces
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.LibPieces

variable {F : FTy → Type} [FloatOps F]

theorem hz2 : (![0, 0] : Fin 2 → Nat) = fun _ => 0 := funext fun a => by fin_cases a <;> rfl

/-- Column `k` of the accumulator, as a rectangle of 24 rows and one column. -/
abbrev colR0 : Rect S24x3 := Rect.unit (s := S24x3) ![0, 0] ![24, 1] Gen.inb_S24x3_S24x1_0_0
abbrev colR1 : Rect S24x3 := Rect.unit (s := S24x3) ![0, 1] ![24, 1] Gen.inb_S24x3_S24x1_0_1
abbrev colR2 : Rect S24x3 := Rect.unit (s := S24x3) ![0, 2] ![24, 1] Gen.inb_S24x3_S24x1_0_2

/-- The accumulator after one run of the accumulation, from the two input blocks and the accumulator before. -/
def step (x0 x1 : Vec F S24x32768 .f32) (xs : Vec F S24x3 .f32) : Vec F S24x3 .f32 :=
  View.canon [⟨colR2, k0_pay7 x0 x1 (View.ld xs colR2)⟩, ⟨colR1, k0_pay6 x1 (View.ld xs colR1)⟩,
    ⟨colR0, k0_pay5 x0 (View.ld xs colR0)⟩]

/-- Three column stores, newest first, over any earlier stores `L`: column `k` holds the store to column `k`. -/
theorem cols_eval0 (w2 w1 w0 : Vec F S24x1 .f32) (L : List (View.Piece (Elt F) S24x3 .f32)) (q : Fin 24) :
    View.canon ((⟨colR2, w2⟩ : View.Piece (Elt F) S24x3 .f32) :: ⟨colR1, w1⟩ :: ⟨colR0, w0⟩ :: L) (ix2 q (0 : Fin 3))
      = w0 (ix2 q (0 : Fin 1)) := by
  refine (canon_cons_unit_of_not_mem Gen.inb_S24x3_S24x1_0_2 _ _ (ix2 q (0 : Fin 3)) (1 : Fin 2) (Or.inl ?_)).trans ?_
  · show (0 : ℕ) < 2; omega
  refine (canon_cons_unit_of_not_mem Gen.inb_S24x3_S24x1_0_1 _ _ (ix2 q (0 : Fin 3)) (1 : Fin 2) (Or.inl ?_)).trans ?_
  · show (0 : ℕ) < 1; omega
  exact canon_cons_unit_of_mem Gen.inb_S24x3_S24x1_0_0 _ _ (ix2 q (0 : Fin 3)) (ix2 q (0 : Fin 1)) (fun a => by
    match a with
    | ⟨0, _⟩ => show q.val = 0 + q.val; omega
    | ⟨1, _⟩ => show (0 : ℕ) = 0 + 0; omega)

theorem cols_eval1 (w2 w1 w0 : Vec F S24x1 .f32) (L : List (View.Piece (Elt F) S24x3 .f32)) (q : Fin 24) :
    View.canon ((⟨colR2, w2⟩ : View.Piece (Elt F) S24x3 .f32) :: ⟨colR1, w1⟩ :: ⟨colR0, w0⟩ :: L) (ix2 q (1 : Fin 3))
      = w1 (ix2 q (0 : Fin 1)) := by
  refine (canon_cons_unit_of_not_mem Gen.inb_S24x3_S24x1_0_2 _ _ (ix2 q (1 : Fin 3)) (1 : Fin 2) (Or.inl ?_)).trans ?_
  · show (1 : ℕ) < 2; omega
  exact canon_cons_unit_of_mem Gen.inb_S24x3_S24x1_0_1 _ _ (ix2 q (1 : Fin 3)) (ix2 q (0 : Fin 1)) (fun a => by
    match a with
    | ⟨0, _⟩ => show q.val = 0 + q.val; omega
    | ⟨1, _⟩ => show (1 : ℕ) = 1 + 0; omega)

theorem cols_eval2 (w2 w1 w0 : Vec F S24x1 .f32) (L : List (View.Piece (Elt F) S24x3 .f32)) (q : Fin 24) :
    View.canon ((⟨colR2, w2⟩ : View.Piece (Elt F) S24x3 .f32) :: ⟨colR1, w1⟩ :: ⟨colR0, w0⟩ :: L) (ix2 q (2 : Fin 3))
      = w2 (ix2 q (0 : Fin 1)) := by
  exact canon_cons_unit_of_mem Gen.inb_S24x3_S24x1_0_2 _ _ (ix2 q (2 : Fin 3)) (ix2 q (0 : Fin 1)) (fun a => by
    match a with
    | ⟨0, _⟩ => show q.val = 0 + q.val; omega
    | ⟨1, _⟩ => show (2 : ℕ) = 2 + 0; omega)

/-- The three columns make up the whole accumulator, so earlier stores do not show. -/
theorem cols_cover (w2 w1 w0 : Vec F S24x1 .f32) (L : List (View.Piece (Elt F) S24x3 .f32)) :
    View.canon ((⟨colR2, w2⟩ : View.Piece (Elt F) S24x3 .f32) :: ⟨colR1, w1⟩ :: ⟨colR0, w0⟩ :: L)
      = View.canon [(⟨colR2, w2⟩ : View.Piece (Elt F) S24x3 .f32), ⟨colR1, w1⟩, ⟨colR0, w0⟩] := by
  funext y
  obtain ⟨q, k, rfl⟩ : ∃ (q : Fin 24) (k : Fin 3), y = ix2 q k := ⟨y 0, y 1, eq_ix2 y⟩
  match k with
  | ⟨0, _⟩ => exact (cols_eval0 w2 w1 w0 L q).trans (cols_eval0 w2 w1 w0 [] q).symm
  | ⟨1, _⟩ => exact (cols_eval1 w2 w1 w0 L q).trans (cols_eval1 w2 w1 w0 [] q).symm
  | ⟨2, _⟩ => exact (cols_eval2 w2 w1 w0 L q).trans (cols_eval2 w2 w1 w0 [] q).symm

/-- Column 0 of the updated accumulator is the first column store's value. -/
theorem step_col0 (x0 x1 : Vec F S24x32768 .f32) (xs : Vec F S24x3 .f32) (q : Fin 24) :
    step x0 x1 xs (ix2 q (0 : Fin 3)) = k0_pay5 x0 (View.ld xs colR0) (ix2 q (0 : Fin 1)) :=
  cols_eval0 _ _ _ [] q

/-- Column 1 is the second column store's value. -/
theorem step_col1 (x0 x1 : Vec F S24x32768 .f32) (xs : Vec F S24x3 .f32) (q : Fin 24) :
    step x0 x1 xs (ix2 q (1 : Fin 3)) = k0_pay6 x1 (View.ld xs colR1) (ix2 q (0 : Fin 1)) :=
  cols_eval1 _ _ _ [] q

/-- Column 2 is the third column store's value. -/
theorem step_col2 (x0 x1 : Vec F S24x32768 .f32) (xs : Vec F S24x3 .f32) (q : Fin 24) :
    step x0 x1 xs (ix2 q (2 : Fin 3)) = k0_pay7 x0 x1 (View.ld xs colR2) (ix2 q (0 : Fin 1)) :=
  cols_eval2 _ _ _ [] q

/-- The whole-buffer rectangle through which the accumulator is zeroed. -/
abbrev wholeR : Rect S24x3 := Rect.unit (s := S24x3) ![0, 0] ![24, 3] Gen.inb_S24x3_S24x3_0_0

/-- A column read after the whole buffer was stored at `z`, and after stores to OTHER columns only, reads `z`'s column. -/
theorem readCov_zero0 {sg : RefSig} {κ : Kind} {sp : Space} (v : View sg κ sp S24x3 .f32) (z : Vec F S24x3 .f32) :
    v.readCov [(⟨wholeR, z⟩ : View.Piece (Elt F) S24x3 .f32)] colR0.toLoadRect = View.ld z colR0 := by
  rw [View.readCov_eq_canon']
  funext j
  rw [View.canon_unit_zero hz2]

theorem readCov_zero1 {sg : RefSig} {κ : Kind} {sp : Space} (v : View sg κ sp S24x3 .f32) (z : Vec F S24x3 .f32)
    (w0 : Vec F S24x1 .f32) :
    v.readCov [(⟨colR0, w0⟩ : View.Piece (Elt F) S24x3 .f32), ⟨wholeR, z⟩] colR1.toLoadRect = View.ld z colR1 := by
  rw [View.readCov_eq_canon']
  funext j
  refine (canon_cons_unit_of_not_mem Gen.inb_S24x3_S24x1_0_0 _ _ _ (1 : Fin 2) (Or.inr ?_)).trans ?_
  · show 0 + 1 ≤ 1 + 1 * (j 1).val; omega
  rw [View.canon_unit_zero hz2]

theorem readCov_zero2 {sg : RefSig} {κ : Kind} {sp : Space} (v : View sg κ sp S24x3 .f32) (z : Vec F S24x3 .f32)
    (w1 w0 : Vec F S24x1 .f32) :
    v.readCov [(⟨colR1, w1⟩ : View.Piece (Elt F) S24x3 .f32), ⟨colR0, w0⟩, ⟨wholeR, z⟩] colR2.toLoadRect
      = View.ld z colR2 := by
  rw [View.readCov_eq_canon']
  funext j
  refine (canon_cons_unit_of_not_mem Gen.inb_S24x3_S24x1_0_1 _ _ _ (1 : Fin 2) (Or.inr ?_)).trans ?_
  · show 1 + 1 ≤ 2 + 1 * (j 1).val; omega
  refine (canon_cons_unit_of_not_mem Gen.inb_S24x3_S24x1_0_0 _ _ _ (1 : Fin 2) (Or.inr ?_)).trans ?_
  · show 0 + 1 ≤ 2 + 1 * (j 1).val; omega
  rw [View.canon_unit_zero hz2]

/-- The first tile of a row block: the accumulator is zeroed, then stepped. -/
theorem scratch_A (c : Dev nD) (i : grid0.Coords) (arg2 : Memref sig .tc .vmem S24x32768 .f32) (harg2 : arg2.IsWhole) (arg3 : Memref sig .tc .vmem S24x32768 .f32) (harg3 : arg3.IsWhole) (arg4 : Memref sig .tc .vmem S24x4 .f32) (harg4 : arg4.IsWhole) (arg5 : Memref sig .tc .vmem S24x3 .f32) (harg5 : arg5.IsWhole) (hc0 : cond0_0 i) (hc1 : ¬cond0_1 i)
    (x0 : Vec F S24x32768 .f32) (x1 : Vec F S24x32768 .f32) :
    sout0_A_0 c i arg2 harg2 arg3 harg3 arg4 harg4 arg5 harg5 hc0 hc1 x0 x1 = step x0 x1 (k0_pay2 (F := F)) := by
  unfold sout0_A_0
  rw [View.read_writes_junk_eq_canon]
  unfold kernelRun0_A
  dsimp only
  sl_unfold_words
  simp only [View.readAt_eq_ld, harg2.read_unread, harg3.read_unread, harg5.read_unread, View.ld_unit_zero (S := S24x32768) hz2]
  simp only [readCov_zero2, readCov_zero1, readCov_zero0]
  exact cols_cover _ _ _ _

/-- A middle tile: the run leaves the accumulator one step further. -/
theorem scratch_B (c : Dev nD) (i : grid0.Coords) (arg2 : Memref sig .tc .vmem S24x32768 .f32) (harg2 : arg2.IsWhole) (arg3 : Memref sig .tc .vmem S24x32768 .f32) (harg3 : arg3.IsWhole) (arg4 : Memref sig .tc .vmem S24x4 .f32) (harg4 : arg4.IsWhole) (arg5 : Memref sig .tc .vmem S24x3 .f32) (harg5 : arg5.IsWhole) (hc0 : ¬cond0_0 i) (hc1 : ¬cond0_1 i)
    (x0 : Vec F S24x32768 .f32) (x1 : Vec F S24x32768 .f32) (xs0 : Vec F S24x3 .f32) :
    sout0_B_0 c i arg2 harg2 arg3 harg3 arg4 harg4 arg5 harg5 hc0 hc1 x0 x1 xs0 = step x0 x1 xs0 := by
  unfold sout0_B_0
  rw [View.read_writes_junk_eq_canon]
  unfold kernelRun0_B
  dsimp only
  sl_unfold_words
  simp only [View.readAt_eq_ld, harg2.read_unread, harg3.read_unread, harg5.read_unread, View.ld_unit_zero (S := S24x32768) hz2]
  rfl

/-- The last tile: the same for the accumulator. -/
theorem scratch_C (c : Dev nD) (i : grid0.Coords) (arg2 : Memref sig .tc .vmem S24x32768 .f32) (harg2 : arg2.IsWhole) (arg3 : Memref sig .tc .vmem S24x32768 .f32) (harg3 : arg3.IsWhole) (arg4 : Memref sig .tc .vmem S24x4 .f32) (harg4 : arg4.IsWhole) (arg5 : Memref sig .tc .vmem S24x3 .f32) (harg5 : arg5.IsWhole) (hc0 : ¬cond0_0 i) (hc1 : cond0_1 i)
    (x0 : Vec F S24x32768 .f32) (x1 : Vec F S24x32768 .f32) (xs0 : Vec F S24x3 .f32) :
    sout0_C_0 c i arg2 harg2 arg3 harg3 arg4 harg4 arg5 harg5 hc0 hc1 x0 x1 xs0 = step x0 x1 xs0 := by
  unfold sout0_C_0
  rw [View.read_writes_junk_eq_canon]
  unfold kernelRun0_C
  dsimp only
  sl_unfold_words
  simp only [View.readAt_eq_ld, harg2.read_unread, harg3.read_unread, harg5.read_unread, View.ld_unit_zero (S := S24x32768) hz2]
  rfl

/-- The last tile's output block: the four result columns computed from the three columns of the accumulator as this
    run has just updated it. -/
theorem out_C (c : Dev nD) (i : grid0.Coords) (arg2 : Memref sig .tc .vmem S24x32768 .f32) (harg2 : arg2.IsWhole) (arg3 : Memref sig .tc .vmem S24x32768 .f32) (harg3 : arg3.IsWhole) (arg4 : Memref sig .tc .vmem S24x4 .f32) (harg4 : arg4.IsWhole) (arg5 : Memref sig .tc .vmem S24x3 .f32) (harg5 : arg5.IsWhole) (hc0 : ¬cond0_0 i) (hc1 : cond0_1 i)
    (x0 : Vec F S24x32768 .f32) (x1 : Vec F S24x32768 .f32) (xs0 : Vec F S24x3 .f32) :
    out0_C_2 c i arg2 harg2 arg3 harg3 arg4 harg4 arg5 harg5 hc0 hc1 x0 x1 xs0
      = k0_pay1 (View.ld (step x0 x1 xs0) colR0) (View.ld (step x0 x1 xs0) colR1) (View.ld (step x0 x1 xs0) colR2) := by
  unfold out0_C_2
  rw [View.read_writes_junk_eq_canon]
  unfold kernelRun0_C
  dsimp only
  sl_unfold_words
  simp only [View.readAt_eq_ld, harg2.read_unread, harg3.read_unread, harg5.read_unread, View.ld_unit_zero (S := S24x32768) hz2]
  rw [View.canon_unit_zero hz2]
  simp only [View.readCov_eq_canon']
  rfl

end Cert.KernelIdeal.Acc

end
-- ==== Proof.StepValue.lean ====
/-
  One accumulation step and the final output block, entry by entry, over the extended reals.

  A row sum of a [24, 32768] block kept as a [24, 1] column is, at row q, the sum over the 32768 lanes of the block's
  entries in that row. So one step adds, at row q, to column 0 the lane sum of the first block, to column 1 that of the
  second, to column 2 that of their entrywise product. The output block's row q is
      (tp, 262144 - sp - st + tp, sp - tp, st - tp)
  of the three accumulated columns sp, st, tp at row q.
-/
import proofs.«146856_j31198642438436_2_alg».proof.Proof.Pieces
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.LibPieces

/-- A lane sum kept as a column, read at row `q`. -/
theorem rowsum_apply (x : FVec Ideal S24x32768 .f32) (h : S24x32768.Reduces [1] S24) (hφ : FKind.Formats .f32)
    (hacc : (0x00000000#32 : BitVec 32) = FKind.add.neutral .f32 hφ) (hc : S24.ShapeCasts S24x1) (q : Fin 24) :
    shapeCast S24x1 (multiReduction (F := Ideal) .add [1] S24 x 0x00000000#32 h hφ hacc) hc (ix2 q (0 : Fin 1))
      = ∑ l : Fin 32768, x (ix2 q l) := by
  refine (shapeCast_apply _ hc (ix2 q (0 : Fin 1)) (ix1 q) ?_).trans ?_
  · rw [Shape.rowMajor_val_one, Shape.rowMajor_val_two]
    show q.val = q.val * 1 + 0
    omega
  refine (Ideal.multiReduction_add_single x 0x00000000#32 h hφ hacc (ix1 q)).trans ?_
  exact Finset.sum_congr rfl fun l _ => congrArg x (funext fun a => Fin.ext (by
    match a with
    | ⟨0, _⟩ => rfl
    | ⟨1, _⟩ => rfl))

/-- A column of the accumulator read at row `q`. -/
theorem ld_col0 (xs : Vec Ideal S24x3 .f32) (q : Fin 24) : View.ld xs colR0 (ix2 q (0 : Fin 1)) = xs (ix2 q (0 : Fin 3)) :=
  congrArg xs (funext fun a => Fin.ext (by
    match a with
    | ⟨0, _⟩ => show 0 + 1 * q.val = q.val; omega
    | ⟨1, _⟩ => show 0 + 1 * 0 = 0; omega))
theorem ld_col1 (xs : Vec Ideal S24x3 .f32) (q : Fin 24) : View.ld xs colR1 (ix2 q (0 : Fin 1)) = xs (ix2 q (1 : Fin 3)) :=
  congrArg xs (funext fun a => Fin.ext (by
    match a with
    | ⟨0, _⟩ => show 0 + 1 * q.val = q.val; omega
    | ⟨1, _⟩ => show 1 + 1 * 0 = 1; omega))
theorem ld_col2 (xs : Vec Ideal S24x3 .f32) (q : Fin 24) : View.ld xs colR2 (ix2 q (0 : Fin 1)) = xs (ix2 q (2 : Fin 3)) :=
  congrArg xs (funext fun a => Fin.ext (by
    match a with
    | ⟨0, _⟩ => show 0 + 1 * q.val = q.val; omega
    | ⟨1, _⟩ => show 2 + 1 * 0 = 2; omega))

/-- One step, column 0: the first block's lane sums are added. -/
theorem step_val0 (x0 x1 : Vec Ideal S24x32768 .f32) (xs : Vec Ideal S24x3 .f32) (q : Fin 24) :
    step x0 x1 xs (ix2 q (0 : Fin 3)) = xs (ix2 q (0 : Fin 3)) + ∑ l : Fin 32768, x0 (ix2 q l) := by
  rw [step_col0]
  unfold k0_pay5 k0_pay3
  simp only [shapeCast_self]
  show View.ld xs colR0 (ix2 q (0 : Fin 1)) + shapeCast S24x1 _ _ (ix2 q (0 : Fin 1)) = _
  rw [ld_col0]
  exact congrArg (xs (ix2 q (0 : Fin 3)) + ·) (rowsum_apply x0 _ _ _ _ q)

/-- One step, column 1: the second block's lane sums are added. -/
theorem step_val1 (x0 x1 : Vec Ideal S24x32768 .f32) (xs : Vec Ideal S24x3 .f32) (q : Fin 24) :
    step x0 x1 xs (ix2 q (1 : Fin 3)) = xs (ix2 q (1 : Fin 3)) + ∑ l : Fin 32768, x1 (ix2 q l) := by
  rw [step_col1]
  unfold k0_pay6 k0_pay4
  simp only [shapeCast_self]
  show View.ld xs colR1 (ix2 q (0 : Fin 1)) + shapeCast S24x1 _ _ (ix2 q (0 : Fin 1)) = _
  rw [ld_col1]
  exact congrArg (xs (ix2 q (1 : Fin 3)) + ·) (rowsum_apply x1 _ _ _ _ q)

/-- One step, column 2: the lane sums of the entrywise product are added. -/
theorem step_val2 (x0 x1 : Vec Ideal S24x32768 .f32) (xs : Vec Ideal S24x3 .f32) (q : Fin 24) :
    step x0 x1 xs (ix2 q (2 : Fin 3)) = xs (ix2 q (2 : Fin 3)) + ∑ l : Fin 32768, x0 (ix2 q l) * x1 (ix2 q l) := by
  rw [step_col2]
  unfold k0_pay7 k0_pay3 k0_pay4
  simp only [shapeCast_self]
  show View.ld xs colR2 (ix2 q (0 : Fin 1)) + shapeCast S24x1 _ _ (ix2 q (0 : Fin 1)) = _
  rw [ld_col2]
  exact congrArg (xs (ix2 q (2 : Fin 3)) + ·) (rowsum_apply (mulf (F := Ideal) x0 x1) _ _ _ _ q)

/-- The zero block the accumulator is reset to. -/
theorem zero_apply (y : S24x3.Idx) : k0_pay2 (F := Ideal) y = 0 := by
  unfold k0_pay2
  show Ideal.ofBits .f32 0x00000000#32 = 0
  exact Ideal.ofBits_zero_f32

/-- The output block at row `q`, column `j`, from the three accumulated columns. -/
theorem pay1_apply (v32 v33 v34 : Vec Ideal S24x1 .f32) (q : Fin 24) (j : Fin 4) :
    k0_pay1 v32 v33 v34 (ix2 q j)
      = (![v34 (ix2 q (0 : Fin 1)),
          Ideal.ofBits .f32 0x48800000#32 - v32 (ix2 q (0 : Fin 1)) - v33 (ix2 q (0 : Fin 1)) + v34 (ix2 q (0 : Fin 1)),
          v32 (ix2 q (0 : Fin 1)) - v34 (ix2 q (0 : Fin 1)),
          v33 (ix2 q (0 : Fin 1)) - v34 (ix2 q (0 : Fin 1))] : Fin 4 → EReal) j := by
  unfold k0_pay1
  refine (concatenate_four_unit_apply (t := S24x4) (s₁ := S24x1) (1 : Fin 2) _ _ _ _ _ rfl rfl (ix2 q j) j rfl (ix2 q (0 : Fin 1)) (fun d hd => by
    match d with
    | ⟨0, _⟩ => rfl
    | ⟨1, _⟩ => exact absurd rfl hd)).trans ?_
  match j with
  | ⟨0, _⟩ => rfl
  | ⟨1, _⟩ => rfl
  | ⟨2, _⟩ => rfl
  | ⟨3, _⟩ => rfl

end Cert.KernelIdeal.Acc

end
-- ==== Proof.Spec.lean ====
/-
  The mathematics of the confusion sums, with no program in sight.

  For two arrays `P`, `T` over [16, 3, 512, 512] and a row (b, c), write p_k, t_k (k < 262144 = 512 * 512) for the
  row's entries in row-major order. The four entries of the result at (b, c) are

      tp = sum p_k t_k,   tn = sum (1 - p_k)(1 - t_k),   fp = sum p_k (1 - t_k),   fn = sum (1 - p_k) t_k.

  When every p_k, t_k is a real number these are determined by the three sums sp = sum p_k, st = sum t_k, tp:

      tn = 262144 - sp - st + tp,   fp = sp - tp,   fn = st - tp,

  because each summand expands (distributivity over the reals) and a finite sum of reals splits termwise. Over the
  extended reals the expansion fails at infinities, so the law is stated for real-valued rows.
  Also here: a sum over `range (L * n)` grows by one tile of length `L` when `n` grows by one.
-/
import Idealize.ShloMosaic.PureOps.Ideal
import Idealize.ShloMosaic.PureOps.Ideal.Laws
import Idealize.ShloMosaic.Lib.ValueIdx

noncomputable section

namespace Cert.Confusion

open Idealize.ShloMosaic Idealize.ShloMosaic.ValueIdx

/-! ## The three float literals -/

/-- The pattern `0x3F800000` is `1.0`. -/
theorem ofBits_one : Ideal.ofBits .f32 0x3F800000#32 = ((1 : ℝ) : EReal) := by
  rw [EReal.coe_one]; simp [Ideal.ofBits, Ideal.ieee, -EReal.coe_mul]; norm_num

/-- The pattern `0x48800000` is `262144.0 = 2^18`, the number of entries of a row. -/
theorem ofBits_tot : Ideal.ofBits .f32 0x48800000#32 = ((262144 : ℝ) : EReal) := by
  simp [Ideal.ofBits, Ideal.ieee, -EReal.coe_mul]; norm_num

/-! ## Real sums inside the extended reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι : Type*} [Fintype ι]

/-- Both factors complemented: `sum (1 - p)(1 - t) = card - sum p - sum t + sum p t` for real rows. -/
theorem tn_law (p t : ι → ℝ) (N : ℝ) (hN : (Fintype.card ι : ℝ) = N) :
    ∑ i, (((1 : ℝ) : EReal) - (p i : EReal)) * (((1 : ℝ) : EReal) - (t i : EReal))
      = (N : EReal) - ∑ i, (p i : EReal) - ∑ i, (t i : EReal) + ∑ i, (p i : EReal) * (t i : EReal) := by
  have e : ∀ i, (((1 : ℝ) : EReal) - (p i : EReal)) * (((1 : ℝ) : EReal) - (t i : EReal))
      = (((1 - p i) * (1 - t i) : ℝ) : EReal) := fun i => by
    rw [← EReal.coe_sub, ← EReal.coe_sub, ← EReal.coe_mul]
  have e2 : ∀ i, (p i : EReal) * (t i : EReal) = ((p i * t i : ℝ) : EReal) := fun i => (EReal.coe_mul _ _).symm
  simp only [e, e2]
  rw [← coe_sum, ← coe_sum, ← coe_sum, ← coe_sum, ← EReal.coe_sub, ← EReal.coe_sub, ← EReal.coe_add]
  congr 1
  have h : ∀ i, (1 - p i) * (1 - t i) = 1 - p i - t i + p i * t i := fun i => by ring
  simp only [h]
  rw [Finset.sum_add_distrib, Finset.sum_sub_distrib, Finset.sum_sub_distrib]
  simp [Finset.card_univ, hN]

/-- The second factor complemented: `sum p (1 - t) = sum p - sum p t`. -/
theorem fp_law (p t : ι → ℝ) :
    ∑ i, (p i : EReal) * (((1 : ℝ) : EReal) - (t i : EReal))
      = ∑ i, (p i : EReal) - ∑ i, (p i : EReal) * (t i : EReal) := by
  have e : ∀ i, (p i : EReal) * (((1 : ℝ) : EReal) - (t i : EReal)) = ((p i * (1 - t i) : ℝ) : EReal) := fun i => by
    rw [← EReal.coe_sub, ← EReal.coe_mul]
  have e2 : ∀ i, (p i : EReal) * (t i : EReal) = ((p i * t i : ℝ) : EReal) := fun i => (EReal.coe_mul _ _).symm
  simp only [e, e2]
  rw [← coe_sum, ← coe_sum, ← coe_sum, ← EReal.coe_sub]
  congr 1
  have h : ∀ i, p i * (1 - t i) = p i - p i * t i := fun i => by ring
  simp only [h]
  rw [Finset.sum_sub_distrib]

/-- The first factor complemented: `sum (1 - p) t = sum t - sum p t`. -/
theorem fn_law (p t : ι → ℝ) :
    ∑ i, (((1 : ℝ) : EReal) - (p i : EReal)) * (t i : EReal)
      = ∑ i, (t i : EReal) - ∑ i, (p i : EReal) * (t i : EReal) := by
  have e : ∀ i, (((1 : ℝ) : EReal) - (p i : EReal)) * (t i : EReal) = (((1 - p i) * t i : ℝ) : EReal) := fun i => by
    rw [← EReal.coe_sub, ← EReal.coe_mul]
  have e2 : ∀ i, (p i : EReal) * (t i : EReal) = ((p i * t i : ℝ) : EReal) := fun i => (EReal.coe_mul _ _).symm
  simp only [e, e2]
  rw [← coe_sum, ← coe_sum, ← coe_sum, ← EReal.coe_sub]
  congr 1
  have h : ∀ i, (1 - p i) * t i = t i - p i * t i := fun i => by ring
  simp only [h]
  rw [Finset.sum_sub_distrib]

/-! ## The result as one function of the two argument arrays -/

/-- The shape of the arguments, [16, 3, 512, 512], and of the result, [16, 3, 4]. -/
abbrev Arg : Shape := ⟨4, ![16, 3, 512, 512]⟩
abbrev Res : Shape := ⟨3, ![16, 3, 4]⟩

/-- Entry `k` (row-major over the last two axes) of row (b, c). -/
def entry (b : Fin 16) (c : Fin 3) (k : Fin 262144) : Arg.Idx :=
  ix4 b c (⟨k.val / 512, by have := k.isLt; omega⟩ : Fin 512) (⟨k.val % 512, Nat.mod_lt _ (by decide)⟩ : Fin 512)

/-- The four confusion sums of row (b, c), with `1.0` spelt as its pattern. -/
@[irreducible] def tpSum (P T : Arg.Idx → EReal) (b : Fin 16) (c : Fin 3) : EReal :=
  ∑ k : Fin 262144, P (entry b c k) * T (entry b c k)
@[irreducible] def tnSum (P T : Arg.Idx → EReal) (b : Fin 16) (c : Fin 3) : EReal :=
  ∑ k : Fin 262144, (Ideal.ofBits .f32 0x3F800000#32 - P (entry b c k)) * (Ideal.ofBits .f32 0x3F800000#32 - T (entry b c k))
@[irreducible] def fpSum (P T : Arg.Idx → EReal) (b : Fin 16) (c : Fin 3) : EReal :=
  ∑ k : Fin 262144, P (entry b c k) * (Ideal.ofBits .f32 0x3F800000#32 - T (entry b c k))
@[irreducible] def fnSum (P T : Arg.Idx → EReal) (b : Fin 16) (c : Fin 3) : EReal :=
  ∑ k : Fin 262144, (Ideal.ofBits .f32 0x3F800000#32 - P (entry b c k)) * T (entry b c k)

/-- The result array: at (b, c, j) the j-th of the four sums of row (b, c). -/
def confusion (P T : Arg.Idx → EReal) : Res.Idx → EReal := fun i =>
  (![tpSum P T (i 0) (i 1), tnSum P T (i 0) (i 1), fpSum P T (i 0) (i 1), fnSum P T (i 0) (i 1)] : Fin 4 → EReal) (i 2)

theorem confusion_apply (P T : Arg.Idx → EReal) (b : Fin 16) (c : Fin 3) (j : Fin 4) :
    confusion P T (ix3 b c j)
      = (![tpSum P T b c, tnSum P T b c, fpSum P T b c, fnSum P T b c] : Fin 4 → EReal) j := rfl

/-- The three plain sums of a row, from which the kernel derives the four. -/
@[irreducible] def spSum (P : Arg.Idx → EReal) (b : Fin 16) (c : Fin 3) : EReal := ∑ k : Fin 262144, P (entry b c k)

/-- For real-valued arrays the four sums are determined by the three plain ones. -/
theorem sums_of_real (P' T' : Arg.Idx → ℝ) (b : Fin 16) (c : Fin 3) :
    tnSum (fun i => (P' i : EReal)) (fun i => (T' i : EReal)) b c
        = Ideal.ofBits .f32 0x48800000#32 - spSum (fun i => (P' i : EReal)) b c - spSum (fun i => (T' i : EReal)) b c
          + tpSum (fun i => (P' i : EReal)) (fun i => (T' i : EReal)) b c
      ∧ fpSum (fun i => (P' i : EReal)) (fun i => (T' i : EReal)) b c
        = spSum (fun i => (P' i : EReal)) b c - tpSum (fun i => (P' i : EReal)) (fun i => (T' i : EReal)) b c
      ∧ fnSum (fun i => (P' i : EReal)) (fun i => (T' i : EReal)) b c
        = spSum (fun i => (T' i : EReal)) b c - tpSum (fun i => (P' i : EReal)) (fun i => (T' i : EReal)) b c := by
  unfold tnSum fpSum fnSum spSum tpSum
  rw [ofBits_one, ofBits_tot]
  exact ⟨tn_law (fun k => P' (entry b c k)) (fun k => T' (entry b c k)) 262144 (by simp),
    fp_law (fun k => P' (entry b c k)) (fun k => T' (entry b c k)),
    fn_law (fun k => P' (entry b c k)) (fun k => T' (entry b c k))⟩

/-- Two four-entry tables, one of functions read at `i`, agree at `j` when their entries agree. -/
theorem vec4_congr {α β : Type*} (x0 x1 x2 x3 : α → β) (y0 y1 y2 y3 : β) (i : α)
    (h0 : x0 i = y0) (h1 : x1 i = y1) (h2 : x2 i = y2) (h3 : x3 i = y3) (j : Fin 4) :
    (![x0, x1, x2, x3] : Fin 4 → α → β) j i = (![y0, y1, y2, y3] : Fin 4 → β) j := by
  match j with
  | ⟨0, _⟩ => exact h0
  | ⟨1, _⟩ => exact h1
  | ⟨2, _⟩ => exact h2
  | ⟨3, _⟩ => exact h3

/-! ## A running sum grows tile by tile -/

/-- The sum of the first `L * (n + 1)` terms is the sum of the first `L * n` plus the next `L`. -/
theorem sum_range_tile {M : Type*} [AddCommMonoid M] (a : ℕ → M) (L n : ℕ) :
    ∑ k ∈ Finset.range (L * (n + 1)), a k = ∑ k ∈ Finset.range (L * n), a k + ∑ l ∈ Finset.range L, a (L * n + l) := by
  rw [Nat.mul_succ, Finset.sum_range_add]

end Cert.Confusion

end
-- ==== Proof.Accum.lean ====
/-
  The accumulator over the grid.

  The grid has 2 x 8 points; point t works on row block t / 8 (24 rows of the [48, 262144] operands) and column tile
  t % 8 (32768 columns). Within a row block the accumulator is reset at tile 0 and stepped at every tile, so after
  point t its column 0 holds, at row q, the sum of the first 32768 * (t % 8 + 1) entries of row 24 * (t / 8) + q of
  the first operand; column 1 the same of the second operand; column 2 the same of their entrywise product. These are
  sums in a commutative monoid: no finiteness is needed. At tile 7 the prefix is the whole row.
-/
import proofs.«146856_j31198642438436_2_alg».proof.Proof.StepValue
import proofs.«146856_j31198642438436_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Confusion

/-- An entry of a [48, 262144] array by natural-number row and column; zero outside the array. -/
def tot (A : S48x262144.Idx → EReal) (r k : ℕ) : EReal :=
  if h : r < 48 ∧ k < 262144 then A (ix2 (⟨r, h.1⟩ : Fin 48) (⟨k, h.2⟩ : Fin 262144)) else 0

/-- The sum of the first `32768 * n` terms. -/
def part (f : ℕ → EReal) (n : ℕ) : EReal := ∑ k ∈ Finset.range (32768 * n), f k

theorem part_zero (f : ℕ → EReal) : part f 0 = 0 := by
  unfold part; simp

/-- One more tile. -/
theorem part_succ (f : ℕ → EReal) (n : ℕ) : part f (n + 1) = part f n + ∑ l : Fin 32768, f (32768 * n + l.val) := by
  unfold part
  rw [sum_range_tile]
  exact congrArg (_ + ·) (Finset.sum_range (fun l => f (32768 * n + l)))

/-- All eight tiles of a row are the row. -/
theorem part_eight (A : S48x262144.Idx → EReal) (r : Fin 48) :
    part (tot A r.val) 8 = ∑ k : Fin 262144, A (ix2 r k) := by
  unfold part
  rw [show 32768 * 8 = 262144 from rfl, Finset.sum_range]
  refine Finset.sum_congr rfl fun k _ => ?_
  unfold tot
  rw [dif_pos ⟨r.isLt, k.isLt⟩]

theorem part_eight_mul (A B : S48x262144.Idx → EReal) (r : Fin 48) :
    part (fun k => tot A r.val k * tot B r.val k) 8 = ∑ k : Fin 262144, A (ix2 r k) * B (ix2 r k) := by
  unfold part
  rw [show 32768 * 8 = 262144 from rfl, Finset.sum_range]
  refine Finset.sum_congr rfl fun k _ => ?_
  unfold tot
  rw [dif_pos ⟨r.isLt, k.isLt⟩, dif_pos ⟨r.isLt, k.isLt⟩]

/-- One step advances every column's prefix by one tile, when the blocks are the tile's entries. -/
theorem step_part (A0 A1 : S48x262144.Idx → EReal) (x0 x1 : Vec Ideal S24x32768 .f32) (xs : Vec Ideal S24x3 .f32)
    (i n : ℕ)
    (hx0 : ∀ (q : Fin 24) (l : Fin 32768), x0 (ix2 q l) = tot A0 (24 * i + q.val) (32768 * n + l.val))
    (hx1 : ∀ (q : Fin 24) (l : Fin 32768), x1 (ix2 q l) = tot A1 (24 * i + q.val) (32768 * n + l.val))
    (hxs : ∀ q : Fin 24, xs (ix2 q (0 : Fin 3)) = part (tot A0 (24 * i + q.val)) n
      ∧ xs (ix2 q (1 : Fin 3)) = part (tot A1 (24 * i + q.val)) n
      ∧ xs (ix2 q (2 : Fin 3)) = part (fun k => tot A0 (24 * i + q.val) k * tot A1 (24 * i + q.val) k) n)
    (q : Fin 24) :
    step x0 x1 xs (ix2 q (0 : Fin 3)) = part (tot A0 (24 * i + q.val)) (n + 1)
      ∧ step x0 x1 xs (ix2 q (1 : Fin 3)) = part (tot A1 (24 * i + q.val)) (n + 1)
      ∧ step x0 x1 xs (ix2 q (2 : Fin 3)) = part (fun k => tot A0 (24 * i + q.val) k * tot A1 (24 * i + q.val) k) (n + 1) := by
  refine ⟨?_, ?_, ?_⟩
  · rw [step_val0, (hxs q).1, part_succ]
    exact congrArg (part (tot A0 (24 * i + q.val)) n + ·) (Finset.sum_congr rfl fun l _ => hx0 q l)
  · rw [step_val1, (hxs q).2.1, part_succ]
    exact congrArg (part (tot A1 (24 * i + q.val)) n + ·) (Finset.sum_congr rfl fun l _ => hx1 q l)
  · rw [step_val2, (hxs q).2.2, part_succ]
    exact congrArg (part (fun k => tot A0 (24 * i + q.val) k * tot A1 (24 * i + q.val) k) n + ·)
      (Finset.sum_congr rfl fun l _ => by rw [hx0 q l, hx1 q l])

variable (m : (ℓ : Loc nD τ sig) → Buf (Elt Ideal) ℓ)

/-- The block index of each input window at point `t`: row block `t / 8`, column tile `t % 8`. -/
theorem idx_in : ∀ t : Fin cfg0.N, win0_0.index t (0 : Fin 2) = t.val / 8 ∧ win0_0.index t (1 : Fin 2) = t.val % 8
    ∧ win0_1.index t (0 : Fin 2) = t.val / 8 ∧ win0_1.index t (1 : Fin 2) = t.val % 8 :=
  (by decide +kernel : ∀ t : Fin grid0.N, win0_0.index t (0 : Fin 2) = t.val / 8 ∧ win0_0.index t (1 : Fin 2) = t.val % 8
    ∧ win0_1.index t (0 : Fin 2) = t.val / 8 ∧ win0_1.index t (1 : Fin 2) = t.val % 8)

/-- The first operand's block at point `t`, entry (q, l), is the operand at row `24 (t/8) + q`, column `32768 (t%8) + l`. -/
theorem iblk0_tot (c : Dev nD) (t : Fin cfg0.N) (q : Fin 24) (l : Fin 32768) :
    (iblk m c 0 t : Vec Ideal S24x32768 .f32) (ix2 q l)
      = tot (V m c main_v0) (24 * (t.val / 8) + q.val) (32768 * (t.val % 8) + l.val) := by
  have hN : t.val < 16 := lt_of_lt_of_eq t.isLt (show cfg0.N = 16 from N_0)
  have hr : 24 * (t.val / 8) + q.val < 48 := by have := q.isLt; omega
  have hk : 32768 * (t.val % 8) + l.val < 262144 := by have := l.isLt; omega
  unfold tot
  rw [dif_pos ⟨hr, hk⟩]
  unfold iblk
  rw [View.read_apply]
  show V m c main_v0 _ = V m c main_v0 _
  refine congrArg (V m c main_v0) (funext fun a => Fin.ext ?_)
  obtain ⟨e0, e1, -, -⟩ := idx_in t
  match a with
  | ⟨0, _⟩ => show win0_0.index t (0 : Fin 2) * 24 + 1 * q.val = 24 * (t.val / 8) + q.val; rw [e0]; omega
  | ⟨1, _⟩ => show win0_0.index t (1 : Fin 2) * 32768 + 1 * l.val = 32768 * (t.val % 8) + l.val; rw [e1]; omega

/-- The same for the second operand. -/
theorem iblk1_tot (c : Dev nD) (t : Fin cfg0.N) (q : Fin 24) (l : Fin 32768) :
    (iblk m c 1 t : Vec Ideal S24x32768 .f32) (ix2 q l)
      = tot (V m c main_v1) (24 * (t.val / 8) + q.val) (32768 * (t.val % 8) + l.val) := by
  have hN : t.val < 16 := lt_of_lt_of_eq t.isLt (show cfg0.N = 16 from N_0)
  have hr : 24 * (t.val / 8) + q.val < 48 := by have := q.isLt; omega
  have hk : 32768 * (t.val % 8) + l.val < 262144 := by have := l.isLt; omega
  unfold tot
  rw [dif_pos ⟨hr, hk⟩]
  unfold iblk
  rw [View.read_apply]
  show V m c main_v1 _ = V m c main_v1 _
  refine congrArg (V m c main_v1) (funext fun a => Fin.ext ?_)
  obtain ⟨-, -, e0, e1⟩ := idx_in t
  match a with
  | ⟨0, _⟩ => show win0_1.index t (0 : Fin 2) * 24 + 1 * q.val = 24 * (t.val / 8) + q.val; rw [e0]; omega
  | ⟨1, _⟩ => show win0_1.index t (1 : Fin 2) * 32768 + 1 * l.val = 32768 * (t.val % 8) + l.val; rw [e1]; omega

/-- The accumulator after point `n`, by recursion on the point: reset and stepped at the first tile of a row block,
    stepped from the point before otherwise. -/
def accF (c : Dev nD) : (n : ℕ) → n < cfg0.N → Vec Ideal S24x3 .f32
  | 0, h => step (iblk m c 0 ⟨0, h⟩) (iblk m c 1 ⟨0, h⟩) (k0_pay2 (F := Ideal))
  | n + 1, h =>
    if (n + 1) % 8 = 0 then step (iblk m c 0 ⟨n + 1, h⟩) (iblk m c 1 ⟨n + 1, h⟩) (k0_pay2 (F := Ideal))
    else step (iblk m c 0 ⟨n + 1, h⟩) (iblk m c 1 ⟨n + 1, h⟩) (accF c n (Nat.lt_of_succ_lt h))

/-- What the kernel's runs leave in the accumulator after point `n` is `accF`. -/
theorem scratch_eq (c : Dev nD) : ∀ (n : ℕ) (h : n < cfg0.N), (outsAt0 m c n h).2 = accF m c n h
  | 0, h => by
    rw [outsAt0_A m c ⟨0, h⟩ rfl (by show ¬0 % 8 = 7; decide)]
    dsimp only
    exact scratch_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)
  | n + 1, h => by
    have ih := scratch_eq c n (Nat.lt_of_succ_lt h)
    by_cases h0 : (n + 1) % 8 = 0
    · have h1 : ¬(n + 1) % 8 = 7 := by omega
      rw [outsAt0_A m c ⟨n + 1, h⟩ h0 h1,
        show accF m c (n + 1) h = step (iblk m c 0 ⟨n + 1, h⟩) (iblk m c 1 ⟨n + 1, h⟩) (k0_pay2 (F := Ideal)) from if_pos h0]
      exact scratch_A (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _)
        ((hcond0_0 ⟨n + 1, h⟩).mpr h0) (fun hh => h1 ((hcond0_1 ⟨n + 1, h⟩).mp hh))
        (iblk m c 0 ⟨n + 1, h⟩) (iblk m c 1 ⟨n + 1, h⟩)
    · rw [show accF m c (n + 1) h = step (iblk m c 0 ⟨n + 1, h⟩) (iblk m c 1 ⟨n + 1, h⟩) (accF m c n (Nat.lt_of_succ_lt h))
        from if_neg h0, ← ih]
      by_cases h1 : (n + 1) % 8 = 7
      · rw [outsAt0_C m c ⟨n + 1, h⟩ h0 h1]
        exact scratch_C (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _)
          (fun hh => h0 ((hcond0_0 ⟨n + 1, h⟩).mp hh)) ((hcond0_1 ⟨n + 1, h⟩).mpr h1)
          (iblk m c 0 ⟨n + 1, h⟩) (iblk m c 1 ⟨n + 1, h⟩) (outsAt0 m c n (Nat.lt_of_succ_lt h)).2
      · rw [outsAt0_B m c ⟨n + 1, h⟩ h0 h1]
        exact scratch_B (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _)
          (fun hh => h0 ((hcond0_0 ⟨n + 1, h⟩).mp hh)) (fun hh => h1 ((hcond0_1 ⟨n + 1, h⟩).mp hh))
          (iblk m c 0 ⟨n + 1, h⟩) (iblk m c 1 ⟨n + 1, h⟩) (outsAt0 m c n (Nat.lt_of_succ_lt h)).2

/-- After point `n` each column holds its row prefix of `n % 8 + 1` tiles. -/
theorem accF_val (c : Dev nD) : ∀ (n : ℕ) (h : n < cfg0.N) (q : Fin 24),
    accF m c n h (ix2 q (0 : Fin 3)) = part (tot (V m c main_v0) (24 * (n / 8) + q.val)) (n % 8 + 1)
      ∧ accF m c n h (ix2 q (1 : Fin 3)) = part (tot (V m c main_v1) (24 * (n / 8) + q.val)) (n % 8 + 1)
      ∧ accF m c n h (ix2 q (2 : Fin 3))
        = part (fun k => tot (V m c main_v0) (24 * (n / 8) + q.val) k * tot (V m c main_v1) (24 * (n / 8) + q.val) k) (n % 8 + 1)
  | 0, h, q =>
    step_part (V m c main_v0) (V m c main_v1) (iblk m c 0 ⟨0, h⟩) (iblk m c 1 ⟨0, h⟩) (k0_pay2 (F := Ideal)) (0 / 8) (0 % 8)
      (fun q l => iblk0_tot m c ⟨0, h⟩ q l) (fun q l => iblk1_tot m c ⟨0, h⟩ q l)
      (fun q => ⟨(zero_apply _).trans (part_zero _).symm, (zero_apply _).trans (part_zero _).symm,
        (zero_apply _).trans (part_zero _).symm⟩) q
  | n + 1, h, q => by
    by_cases h0 : (n + 1) % 8 = 0
    · rw [show accF m c (n + 1) h = step (iblk m c 0 ⟨n + 1, h⟩) (iblk m c 1 ⟨n + 1, h⟩) (k0_pay2 (F := Ideal)) from if_pos h0]
      have := step_part (V m c main_v0) (V m c main_v1) (iblk m c 0 ⟨n + 1, h⟩) (iblk m c 1 ⟨n + 1, h⟩)
        (k0_pay2 (F := Ideal)) ((n + 1) / 8) ((n + 1) % 8)
        (fun q l => iblk0_tot m c ⟨n + 1, h⟩ q l) (fun q l => iblk1_tot m c ⟨n + 1, h⟩ q l)
        (fun q => by
          rw [h0]
          exact ⟨(zero_apply _).trans (part_zero _).symm, (zero_apply _).trans (part_zero _).symm,
            (zero_apply _).trans (part_zero _).symm⟩) q
      exact this
    · rw [show accF m c (n + 1) h = step (iblk m c 0 ⟨n + 1, h⟩) (iblk m c 1 ⟨n + 1, h⟩) (accF m c n (Nat.lt_of_succ_lt h))
        from if_neg h0]
      have e1 : n / 8 = (n + 1) / 8 := by omega
      have e2 : n % 8 + 1 = (n + 1) % 8 := by omega
      exact step_part (V m c main_v0) (V m c main_v1) (iblk m c 0 ⟨n + 1, h⟩) (iblk m c 1 ⟨n + 1, h⟩)
        (accF m c n (Nat.lt_of_succ_lt h)) ((n + 1) / 8) ((n + 1) % 8)
        (fun q l => iblk0_tot m c ⟨n + 1, h⟩ q l) (fun q l => iblk1_tot m c ⟨n + 1, h⟩ q l)
        (fun q => by
          have ih := accF_val c n (Nat.lt_of_succ_lt h) q
          rw [e1, e2] at ih
          exact ih) q

end Cert.KernelIdeal.Acc

end
-- ==== Proof.KernelValue.lean ====
/-
  The kernel's result array.

  The region's output [48, 4] is written back once per row block, after the last column tile (points 7 and 15), from
  the accumulator as it then stands: the whole-row sums sp, st, tp of each of the block's 24 rows. So row r of the
  output is (tp, 262144 - sp - st + tp, sp - tp, st - tp) of row r of the two [48, 262144] operands. The operands are
  the arguments reshaped [16, 3, 512, 512] -> [48, 262144] and the program's result is the output reshaped
  [48, 4] -> [16, 3, 4]; both reshapes keep row-major positions, so row 3 b + c is row (b, c).
-/
import proofs.«146856_j31198642438436_2_alg».proof.Proof.Accum
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Confusion

/-- The sum of a row of a [48, 262144] array, and of the entrywise product of two such rows. -/
@[irreducible] def rowSum (A : S48x262144.Idx → EReal) (r : Fin 48) : EReal := ∑ k : Fin 262144, A (ix2 r k)
@[irreducible] def rowDot (A B : S48x262144.Idx → EReal) (r : Fin 48) : EReal :=
  ∑ k : Fin 262144, A (ix2 r k) * B (ix2 r k)

/-- The output array [48, 4] the region leaves, from the two operands. -/
def rowsRes (A0 A1 : S48x262144.Idx → EReal) : S48x4.Idx → EReal := fun y =>
  (![rowDot A0 A1 (y 0),
    Ideal.ofBits .f32 0x48800000#32 - rowSum A0 (y 0) - rowSum A1 (y 0) + rowDot A0 A1 (y 0),
    rowSum A0 (y 0) - rowDot A0 A1 (y 0),
    rowSum A1 (y 0) - rowDot A0 A1 (y 0)] : Fin 4 → EReal) (y 1)

theorem rowsRes_apply (A0 A1 : S48x262144.Idx → EReal) (r : Fin 48) (j : Fin 4) :
    rowsRes A0 A1 (ix2 r j)
      = (![rowDot A0 A1 r, Ideal.ofBits .f32 0x48800000#32 - rowSum A0 r - rowSum A1 r + rowDot A0 A1 r,
          rowSum A0 r - rowDot A0 A1 r, rowSum A1 r - rowDot A0 A1 r] : Fin 4 → EReal) j := rfl

variable (m : (ℓ : Loc nD τ sig) → Buf (Elt Ideal) ℓ) (ρ : Dev nD → PrngReg)

/-- At the last tile of a row block the output block is computed from the accumulator as this point leaves it. -/
theorem out_eq (c : Dev nD) : ∀ (n : ℕ) (h : n < cfg0.N) (h0 : ¬n % 8 = 0) (h7 : n % 8 = 7),
    (outsAt0 m c n h).1 = k0_pay1 (View.ld (accF m c n h) colR0) (View.ld (accF m c n h) colR1)
      (View.ld (accF m c n h) colR2)
  | 0, h, h0, _ => absurd (Nat.zero_mod 8) h0
  | n + 1, h, h0, h7 => by
    rw [outsAt0_C m c ⟨n + 1, h⟩ h0 h7,
      show accF m c (n + 1) h = step (iblk m c 0 ⟨n + 1, h⟩) (iblk m c 1 ⟨n + 1, h⟩) (accF m c n (Nat.lt_of_succ_lt h))
        from if_neg h0, ← scratch_eq m c n (Nat.lt_of_succ_lt h)]
    exact out_C (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) scM0_0 (Memref.isWhole_whole _)
      (fun hh => h0 ((hcond0_0 ⟨n + 1, h⟩).mp hh)) ((hcond0_1 ⟨n + 1, h⟩).mpr h7)
      (iblk m c 0 ⟨n + 1, h⟩) (iblk m c 1 ⟨n + 1, h⟩) (outsAt0 m c n (Nat.lt_of_succ_lt h)).2

/-- The output window's block index at point `t`: row block `t / 8`, the one column block. -/
theorem idx_out : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What a write-back point writes is its block of `rowsRes`. -/
theorem flushed_eq (c : Dev nD) (t : Fin cfg0.N) (hf : (cfg0.win 2).flush t = true) :
    (dats m 0 c).flushed 2 t
      = ((cfg0.win 2).blk t).view.read (Elt Ideal) (rowsRes (V m c main_v0) (V m c main_v1)) := by
  have h7 : t.val % 8 = 7 := (flush0_2 t).mp hf
  have h0 : ¬t.val % 8 = 0 := by omega
  have hN : t.val < 16 := lt_of_lt_of_eq t.isLt (show cfg0.N = 16 from N_0)
  show (cfg0.win 2).cut (grid0.coords t) ((dats m 0 c).after 2 t) = _
  rw [after0_2, out_eq m c t.val t.isLt h0 h7]
  funext j
  obtain ⟨q, jj, rfl⟩ : ∃ (q : Fin 24) (jj : Fin 4), j = ix2 q jj := ⟨j 0, j 1, eq_ix2 j⟩
  have hr : 24 * (t.val / 8) + q.val < 48 := by have := q.isLt; omega
  obtain ⟨e0, e1⟩ := idx_out t
  have he : ((cfg0.win 2).blk t).view.emb (ix2 q jj) = ix2 (⟨24 * (t.val / 8) + q.val, hr⟩ : Fin 48) jj :=
    funext fun a => Fin.ext (by
      match a with
      | ⟨0, _⟩ => show win0_2.index t (0 : Fin 2) * 24 + 1 * q.val = 24 * (t.val / 8) + q.val; rw [e0]; omega
      | ⟨1, _⟩ => show win0_2.index t (1 : Fin 2) * 4 + 1 * jj.val = jj.val; rw [e1]; omega)
  have hv := accF_val m c t.val t.isLt q
  rw [h7] at hv
  have s0 : View.ld (accF m c t.val t.isLt) colR0 (ix2 q (0 : Fin 1))
      = rowSum (V m c main_v0) (⟨24 * (t.val / 8) + q.val, hr⟩ : Fin 48) := by
    unfold rowSum
    exact (ld_col0 _ q).trans (hv.1.trans (part_eight (V m c main_v0) ⟨24 * (t.val / 8) + q.val, hr⟩))
  have s1 : View.ld (accF m c t.val t.isLt) colR1 (ix2 q (0 : Fin 1))
      = rowSum (V m c main_v1) (⟨24 * (t.val / 8) + q.val, hr⟩ : Fin 48) := by
    unfold rowSum
    exact (ld_col1 _ q).trans (hv.2.1.trans (part_eight (V m c main_v1) ⟨24 * (t.val / 8) + q.val, hr⟩))
  have s2 : View.ld (accF m c t.val t.isLt) colR2 (ix2 q (0 : Fin 1))
      = rowDot (V m c main_v0) (V m c main_v1) (⟨24 * (t.val / 8) + q.val, hr⟩ : Fin 48) := by
    unfold rowDot
    exact (ld_col2 _ q).trans (hv.2.2.trans (part_eight_mul (V m c main_v0) (V m c main_v1) ⟨24 * (t.val / 8) + q.val, hr⟩))
  rw [View.read_apply]
  show k0_pay1 (F := Ideal) _ _ _ (ix2 q jj) = rowsRes (V m c main_v0) (V m c main_v1) (((cfg0.win 2).blk t).view.emb (ix2 q jj))
  rw [he, rowsRes_apply, pay1_apply, s0, s1, s2]

/-- An index of the output array is in point `t`'s block iff each coordinate is in the block's range. -/
theorem mem_blk (t : Fin cfg0.N) (i : S48x4.Idx) :
    i ∈ ((cfg0.win 2).blk t).view.set ↔ ∀ a : Fin 2, win0_2.index t a * S24x4.size a ≤ (i a).val
      ∧ (i a).val < win0_2.index t a * S24x4.size a + S24x4.size a := by
  show i ∈ ((View.whole main_v2).slice (win0_2.rect t)).set ↔ _
  rw [View.set_slice_whole, Rect.mem_set_unit]
  exact Iff.rfl

/-- The two write-backs cover the output array: row r is in the block written at point `8 (r / 24) + 7`. -/
theorem cover (i : S48x4.Idx) : ∃ t : Fin cfg0.N, (cfg0.win 2).flush t = true ∧ i ∈ ((cfg0.win 2).blk t).view.set := by
  have hi0 : (i 0).val < 48 := (i 0).isLt
  have hi1 : (i 1).val < 4 := (i 1).isLt
  have hN : cfg0.N = 16 := N_0
  let t : Fin cfg0.N := ⟨8 * ((i 0).val / 24) + 7, by rw [hN]; omega⟩
  have ht : t.val = 8 * ((i 0).val / 24) + 7 := rfl
  refine ⟨t, (flush0_2 t).mpr (by rw [ht]; omega), ?_⟩
  rw [mem_blk]
  obtain ⟨e0, e1⟩ := idx_out t
  intro a
  match a with
  | ⟨0, _⟩ =>
    show win0_2.index t (0 : Fin 2) * 24 ≤ (i 0).val ∧ (i 0).val < win0_2.index t (0 : Fin 2) * 24 + 24
    rw [e0, ht]; omega
  | ⟨1, _⟩ =>
    show win0_2.index t (1 : Fin 2) * 4 ≤ (i 1).val ∧ (i 1).val < win0_2.index t (1 : Fin 2) * 4 + 4
    rw [e1]; omega

/-- The region's output array after the run. -/
theorem final (c : Dev nD) : (dats m 0 c).arrAt 2 cfg0.N = rowsRes (V m c main_v0) (V m c main_v1) :=
  (dats m 0 c).arrAt_eq_of_cover 2 (rowsRes (V m c main_v0) (V m c main_v1)) (flushed_eq m c) cover

/-- The operands the region finds: the arguments reshaped. -/
theorem V_v0 (c : Dev nD) : (V m c main_v0 : S48x262144.Idx → EReal)
    = shapeCast S48x262144 (m ((c : Thread nD τ).loc main_arg0)) shapeCasts_S16x3x512x512_S48x262144 := by
  show StableHlo.after hostOps0 (fun b => m (c, b)) (Proc.devRef .tc main_v0) = _
  after_results
  rfl
theorem V_v1 (c : Dev nD) : (V m c main_v1 : S48x262144.Idx → EReal)
    = shapeCast S48x262144 (m ((c : Thread nD τ).loc main_arg1)) shapeCasts_S16x3x512x512_S48x262144 := by
  show StableHlo.after hostOps0 (fun b => m (c, b)) (Proc.devRef .tc main_v1) = _
  after_results
  rfl

/-- The program's result: the output array reshaped. -/
theorem tail_eq (c : Dev nD) :
    Pipeline.afterTail₀ cfgs (dats m) 0 (V0 m) [hostOps1] c main_v3
      = shapeCast S16x3x4 (rowsRes (V m c main_v0) (V m c main_v1)) shapeCasts_S48x4_S16x3x4 := by
  unfold Pipeline.afterTail₀
  show StableHlo.after hostOps1 _ (Proc.devRef .tc main_v3) = _
  after_results
  exact congrArg (fun x => shapeCast S16x3x4 x shapeCasts_S48x4_S16x3x4)
    ((Pipeline.withArrays_arr spec0 launch0.win.arr_inj c _ _ 2).trans (final m c))

/-- The run, read: the result at the reshaped output, the arguments unchanged. -/
theorem run : θ_run defs (onTc (τ := τ) (main (F := Ideal))) ⟨m, fun _ => 0, ρ⟩ fun r => ∀ c : Dev nD,
      r.2.mem ((c : Thread nD τ).loc main_v3)
        = shapeCast S16x3x4 (rowsRes (V m c main_v0) (V m c main_v1)) shapeCasts_S48x4_S16x3x4
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.Bridge.lean ====
/-
  The two sides meet.

  The kernel's result at (b, c, j) is entry j of (tp, 262144 - sp - st + tp, sp - tp, st - tp) for row 3 b + c of the
  reshaped operands, which is row (b, c) of the arguments; the reference's is the j-th confusion sum of row (b, c).
  For real-valued arguments the four confusion sums are exactly those four expressions of sp, st, tp.
-/
import proofs.«146856_j31198642438436_2_alg».proof.Proof.KernelValue

set_option maxRecDepth 16384

noncomputable section

open Idealize.ShloMosaic Idealize.ShloMosaic.ValueIdx

namespace Cert.KernelIdeal.Acc

open Cert.KernelIdeal Cert.KernelIdeal.Gen Cert.Confusion

/-- Row `3 b + c` of the reshaped argument is row (b, c) of the argument. -/
theorem reshaped_apply (P : Arg.Idx → EReal) (b : Fin 16) (c : Fin 3) (r : Fin 48) (hr : r.val = 3 * b.val + c.val)
    (k : Fin 262144) :
    shapeCast S48x262144 P shapeCasts_S16x3x512x512_S48x262144 (ix2 r k) = P (entry b c k) := by
  refine shapeCast_apply P shapeCasts_S16x3x512x512_S48x262144 (ix2 r k) (entry b c k) ?_
  rw [Shape.rowMajor_val_four, Shape.rowMajor_val_two]
  show ((b.val * 3 + c.val) * 512 + k.val / 512) * 512 + k.val % 512 = r.val * 262144 + k.val
  have := k.isLt
  omega

theorem rowSum_reshaped (P : Arg.Idx → EReal) (b : Fin 16) (c : Fin 3) (r : Fin 48) (hr : r.val = 3 * b.val + c.val) :
    rowSum (shapeCast S48x262144 P shapeCasts_S16x3x512x512_S48x262144) r = spSum P b c := by
  unfold rowSum spSum
  exact Finset.sum_congr rfl fun k _ => reshaped_apply P b c r hr k

theorem rowDot_reshaped (P T : Arg.Idx → EReal) (b : Fin 16) (c : Fin 3) (r : Fin 48) (hr : r.val = 3 * b.val + c.val) :
    rowDot (shapeCast S48x262144 P shapeCasts_S16x3x512x512_S48x262144)
      (shapeCast S48x262144 T shapeCasts_S16x3x512x512_S48x262144) r = tpSum P T b c := by
  unfold rowDot tpSum
  exact Finset.sum_congr rfl fun k _ => by rw [reshaped_apply P b c r hr k, reshaped_apply T b c r hr k]

/-- For real-valued arguments the kernel's result array is the confusion array. -/
theorem result_eq (P T : Arg.Idx → EReal) (hP : ∀ i, ∃ r : ℝ, P i = (r : EReal)) (hT : ∀ i, ∃ r : ℝ, T i = (r : EReal)) :
    shapeCast S16x3x4 (rowsRes (shapeCast S48x262144 P shapeCasts_S16x3x512x512_S48x262144)
      (shapeCast S48x262144 T shapeCasts_S16x3x512x512_S48x262144)) shapeCasts_S48x4_S16x3x4 = confusion P T := by
  choose P' hP' using hP
  choose T' hT' using hT
  obtain rfl : P = fun i => (P' i : EReal) := funext hP'
  obtain rfl : T = fun i => (T' i : EReal) := funext hT'
  funext i
  obtain ⟨b, c, j, rfl⟩ : ∃ (b : Fin 16) (c : Fin 3) (j : Fin 4), i = ix3 b c j := ⟨i 0, i 1, i 2, eq_ix3 i⟩
  have hr : 3 * b.val + c.val < 48 := by have := b.isLt; have := c.isLt; omega
  refine (shapeCast_apply _ shapeCasts_S48x4_S16x3x4 (ix3 b c j) (ix2 (⟨3 * b.val + c.val, hr⟩ : Fin 48) j) ?_).trans ?_
  · rw [Shape.rowMajor_val_two, Shape.rowMajor_val_three]
    show (3 * b.val + c.val) * 4 + j.val = (b.val * 3 + c.val) * 4 + j.val
    omega
  rw [rowsRes_apply, confusion_apply, rowSum_reshaped _ b c _ rfl, rowSum_reshaped _ b c _ rfl,
    rowDot_reshaped _ _ b c _ rfl]
  obtain ⟨h1, h2, h3⟩ := sums_of_real P' T' b c
  rw [h1, h2, h3]

end Cert.KernelIdeal.Acc

end
-- ==== Proof.RefValue.lean ====
/-
  The reference computes the confusion array as stated: at (b, c, j) it is the j-th of the four sums over the 262144
  entries of row (b, c), each sum started from the zero constant, the four [16, 3] arrays joined along a new last axis.
  A reshape [16, 3, 512, 512] -> [16, 3, 262144] keeps row-major positions, so entry k of row (b, c) of the reshaped
  array is the argument at (b, c, k / 512, k % 512).
-/
import proofs.«146856_j31198642438436_2_alg».proof.Proof.Gen.ReferenceIdeal.Read
import proofs.«146856_j31198642438436_2_alg».proof.Proof.Spec
import proofs.«146856_j31198642438436_2_alg».proof.Proof.LibPieces
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Read Cert.Confusion Cert.LibPieces

/-- The reshaped operand at (b, c, k) is the argument's entry k of row (b, c). -/
theorem idx_entry (b : Fin 16) (c : Fin 3) (k : Fin 262144) :
    idx_main_v0 (ix3 b c k) = entry b c k := by
  funext a
  apply Fin.ext
  have hb := b.isLt; have hc := c.isLt; have hk := k.isLt
  match a with
  | ⟨0, _⟩ => show ((b.val * 3 + c.val) * 262144 + k.val) / 786432 = b.val; omega
  | ⟨1, _⟩ => show ((b.val * 3 + c.val) * 262144 + k.val) / 262144 % 3 = c.val; omega
  | ⟨2, _⟩ => show ((b.val * 3 + c.val) * 262144 + k.val) / 512 % 512 = k.val / 512; omega
  | ⟨3, _⟩ => show ((b.val * 3 + c.val) * 262144 + k.val) % 512 = k.val % 512; omega

theorem v0_apply (P : Arg.Idx → EReal) (b : Fin 16) (c : Fin 3) (k : Fin 262144) :
    val_main_v0 (F := Ideal) P (ix3 b c k) = P (entry b c k) := by
  rw [val_main_v0_apply, idx_entry]

theorem v1_apply (T : Arg.Idx → EReal) (b : Fin 16) (c : Fin 3) (k : Fin 262144) :
    val_main_v1 (F := Ideal) T (ix3 b c k) = T (entry b c k) := by
  rw [val_main_v1_apply]
  exact congrArg T (idx_entry b c k)

/-- The broadcast constant is `1.0` everywhere. -/
theorem ones_apply (i : S16x3x262144.Idx) :
    val_main_v4 (F := Ideal) i = Ideal.ofBits .f32 0x3F800000#32
      ∧ val_main_v6 (F := Ideal) i = Ideal.ofBits .f32 0x3F800000#32
      ∧ val_main_v10 (F := Ideal) i = Ideal.ofBits .f32 0x3F800000#32
      ∧ val_main_v14 (F := Ideal) i = Ideal.ofBits .f32 0x3F800000#32 :=
  ⟨by rw [val_main_v4_apply]; rfl, by rw [val_main_v6_apply]; rfl, by rw [val_main_v10_apply]; rfl,
    by rw [val_main_v14_apply]; rfl⟩

/-- The first sum. -/
theorem v3_eq (P T : Arg.Idx → EReal) (b : Fin 16) (c : Fin 3) :
    val_main_v3 (F := Ideal) P T (ix2 b c) = tpSum P T b c := by
  rw [val_main_v3_apply]
  show Ideal.ofBits .f32 0x00000000#32 + _ = _
  rw [Ideal.ofBits_zero_f32, zero_add]
  unfold tpSum
  refine Finset.sum_congr rfl fun k _ => ?_
  show val_main_v0 (F := Ideal) P (ix3 b c k) * val_main_v1 (F := Ideal) T (ix3 b c k) = _
  rw [v0_apply, v1_apply]

/-- The second sum. -/
theorem v9_eq (P T : Arg.Idx → EReal) (b : Fin 16) (c : Fin 3) :
    val_main_v9 (F := Ideal) P T (ix2 b c) = tnSum P T b c := by
  rw [val_main_v9_apply]
  show Ideal.ofBits .f32 0x00000000#32 + _ = _
  rw [Ideal.ofBits_zero_f32, zero_add]
  unfold tnSum
  refine Finset.sum_congr rfl fun k _ => ?_
  show (val_main_v4 (F := Ideal) (ix3 b c k) - val_main_v0 (F := Ideal) P (ix3 b c k))
    * (val_main_v6 (F := Ideal) (ix3 b c k) - val_main_v1 (F := Ideal) T (ix3 b c k)) = _
  rw [v0_apply, v1_apply, (ones_apply _).1, (ones_apply _).2.1]

/-- The third sum. -/
theorem v13_eq (P T : Arg.Idx → EReal) (b : Fin 16) (c : Fin 3) :
    val_main_v13 (F := Ideal) P T (ix2 b c) = fpSum P T b c := by
  rw [val_main_v13_apply]
  show Ideal.ofBits .f32 0x00000000#32 + _ = _
  rw [Ideal.ofBits_zero_f32, zero_add]
  unfold fpSum
  refine Finset.sum_congr rfl fun k _ => ?_
  show val_main_v0 (F := Ideal) P (ix3 b c k)
    * (val_main_v10 (F := Ideal) (ix3 b c k) - val_main_v1 (F := Ideal) T (ix3 b c k)) = _
  rw [v0_apply, v1_apply, (ones_apply _).2.2.1]

/-- The fourth sum. -/
theorem v17_eq (P T : Arg.Idx → EReal) (b : Fin 16) (c : Fin 3) :
    val_main_v17 (F := Ideal) P T (ix2 b c) = fnSum P T b c := by
  rw [val_main_v17_apply]
  show Ideal.ofBits .f32 0x00000000#32 + _ = _
  rw [Ideal.ofBits_zero_f32, zero_add]
  unfold fnSum
  refine Finset.sum_congr rfl fun k _ => ?_
  show (val_main_v14 (F := Ideal) (ix3 b c k) - val_main_v0 (F := Ideal) P (ix3 b c k))
    * val_main_v1 (F := Ideal) T (ix3 b c k) = _
  rw [v0_apply, v1_apply, (ones_apply _).2.2.2]

/-- The keepdims broadcast [16, 3] -> [16, 3, 1] reads (b, c, 0) at (b, c). -/
theorem idx18 (b : Fin 16) (c : Fin 3) : idx_main_v18 (ix3 b c (0 : Fin 1)) = ix2 b c :=
  funext fun a => Fin.ext (by
    match a with
    | ⟨0, _⟩ => rfl
    | ⟨1, _⟩ => rfl)
theorem idx19 (b : Fin 16) (c : Fin 3) : idx_main_v19 (ix3 b c (0 : Fin 1)) = ix2 b c :=
  funext fun a => Fin.ext (by
    match a with
    | ⟨0, _⟩ => rfl
    | ⟨1, _⟩ => rfl)
theorem idx20 (b : Fin 16) (c : Fin 3) : idx_main_v20 (ix3 b c (0 : Fin 1)) = ix2 b c :=
  funext fun a => Fin.ext (by
    match a with
    | ⟨0, _⟩ => rfl
    | ⟨1, _⟩ => rfl)
theorem idx21 (b : Fin 16) (c : Fin 3) : idx_main_v21 (ix3 b c (0 : Fin 1)) = ix2 b c :=
  funext fun a => Fin.ext (by
    match a with
    | ⟨0, _⟩ => rfl
    | ⟨1, _⟩ => rfl)

/-- The reference's result is the confusion array. -/
theorem result_eq (P T : Arg.Idx → EReal) : val_main_v22 (F := Ideal) P T = confusion P T := by
  funext i
  obtain ⟨b, c, j, rfl⟩ : ∃ (b : Fin 16) (c : Fin 3) (j : Fin 4), i = ix3 b c j := ⟨i 0, i 1, i 2, eq_ix3 i⟩
  have e18 : val_main_v18 (F := Ideal) P T (ix3 b c (0 : Fin 1)) = tpSum P T b c :=
    (val_main_v18_apply (F := Ideal) P T (ix3 b c (0 : Fin 1))).trans ((congrArg (val_main_v3 (F := Ideal) P T) (idx18 b c)).trans (v3_eq P T b c))
  have e19 : val_main_v19 (F := Ideal) P T (ix3 b c (0 : Fin 1)) = tnSum P T b c :=
    (val_main_v19_apply (F := Ideal) P T (ix3 b c (0 : Fin 1))).trans ((congrArg (val_main_v9 (F := Ideal) P T) (idx19 b c)).trans (v9_eq P T b c))
  have e20 : val_main_v20 (F := Ideal) P T (ix3 b c (0 : Fin 1)) = fpSum P T b c :=
    (val_main_v20_apply (F := Ideal) P T (ix3 b c (0 : Fin 1))).trans ((congrArg (val_main_v13 (F := Ideal) P T) (idx20 b c)).trans (v13_eq P T b c))
  have e21 : val_main_v21 (F := Ideal) P T (ix3 b c (0 : Fin 1)) = fnSum P T b c :=
    (val_main_v21_apply (F := Ideal) P T (ix3 b c (0 : Fin 1))).trans ((congrArg (val_main_v17 (F := Ideal) P T) (idx21 b c)).trans (v17_eq P T b c))
  unfold val_main_v22
  refine (concatenate_four_unit_apply (t := S16x3x4) (s₁ := S16x3x1) (2 : Fin 3) _ _ _ _ _ rfl rfl (ix3 b c j) j rfl
    (ix3 b c (0 : Fin 1)) (fun d hd => by
      match d with
      | ⟨0, _⟩ => rfl
      | ⟨1, _⟩ => rfl
      | ⟨2, _⟩ => exact absurd rfl hd)).trans ?_
  rw [confusion_apply]
  exact vec4_congr _ _ _ _ _ _ _ _ _ e18 e19 e20 e21 j

end Cert.ReferenceIdeal.RefValue

end
-- ==== Proof.Finite.lean ====
/-
  What the precondition says: every entry of both argument arrays is a real number.

  The precondition is the conjunction of two reductions by "and", over all entries, of the comparison |x| < +inf; a
  reduction by "and" from the value true that comes out true met only true entries; and an extended real whose
  absolute value is below +inf is neither infinity.
-/
import proofs.«146856_j31198642438436_2_alg».proof.Proof.Gen.Pre_finite_inputs
import Idealize.ShloMosaic.PureOps.Ideal
import Idealize.ShloMosaic.Lib.ReduceAll
import Idealize.ShloMosaic.Lib.ValueIdx

noncomputable section

open Idealize.ShloMosaic

namespace Cert.Confusion.Finite

open Cert.Pre_finite_inputs

instance : Subsingleton S_.Idx := ⟨fun a b => funext fun d => d.elim0⟩

/-- The pattern `0x7F800000` is +inf. -/
theorem ofBits_inf : Ideal.ofBits .f32 0x7F800000#32 = (⊤ : EReal) := by
  simp [Ideal.ofBits, Ideal.ieee]

/-- An extended real with `|x| < +inf` is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exfalso; simp [Ideal.cmp] at h
  | coe r => exact ⟨r, rfl⟩
  | top => exfalso; simp [Ideal.cmp] at h

/-- Under the precondition both arrays are real-valued. -/
theorem real_of_pre (P T : FVec Ideal S16x3x512x512 .f32) (h : fn (F := Ideal) P T = fun _ => 1#1) :
    (∀ i, ∃ r : ℝ, P i = (r : EReal)) ∧ (∀ i, ∃ r : ℝ, T i = (r : EReal)) := by
  have h0 := congrFun h ValueIdx.ix0
  dsimp only [fn] at h0
  have h1 := IntOp.andi_eq_one.mp h0
  refine ⟨fun i => ?_, fun i => ?_⟩
  · exact real_of_abs_lt_inf (P i) (Host.reduce_andi_all _ _ _ _ _ h1.1 i)
  · exact real_of_abs_lt_inf (T i) (Host.reduce_andi_all _ _ _ _ _ h1.2 i)

end Cert.Confusion.Finite

end
-- ==== Proof.lean ====
/-
  The kernel computes, for each of the 48 rows (b, c) of two [16, 3, 512, 512] arrays p, t, the three row sums
  sp = sum p, st = sum t, tp = sum p t (accumulated over eight column tiles of 32768 entries), and from them the
  confusion entries (tp, 262144 - sp - st + tp, sp - tp, st - tp). The reference sums the four products
  p t, (1 - p)(1 - t), p (1 - t), (1 - p) t directly. For finite inputs the two agree: each product expands over the
  reals and a finite sum of reals splits termwise; the row has 262144 = 2^18 entries, which the literal 262144.0 is
  exactly. Nothing is rewritten between the kernel and its idealization, so that claim is trivial; the three frames
  are the generated frame runs (for the reference, its generated run with the result dropped).
-/
import proofs.«146856_j31198642438436_2_alg».proof.Defs
import proofs.«146856_j31198642438436_2_alg».proof.Proof.Gen.Kernel
import proofs.«146856_j31198642438436_2_alg».proof.Proof.Gen.Kernel.Skeleton
import proofs.«146856_j31198642438436_2_alg».proof.Proof.Gen.Kernel.Launch
import proofs.«146856_j31198642438436_2_alg».proof.Proof.Gen.Kernel.Points
import proofs.«146856_j31198642438436_2_alg».proof.Proof.Gen.Kernel.Frame
import proofs.«146856_j31198642438436_2_alg».proof.Proof.Gen.KernelIdeal
import proofs.«146856_j31198642438436_2_alg».proof.Proof.Gen.KernelIdeal.Skeleton
import proofs.«146856_j31198642438436_2_alg».proof.Proof.Gen.KernelIdeal.Launch
import proofs.«146856_j31198642438436_2_alg».proof.Proof.Gen.KernelIdeal.Points
import proofs.«146856_j31198642438436_2_alg».proof.Proof.Gen.KernelIdeal.Frame
import proofs.«146856_j31198642438436_2_alg».proof.Proof.Gen.ReferenceIdeal
import proofs.«146856_j31198642438436_2_alg».proof.Proof.Gen.Pre_finite_inputs
import proofs.«146856_j31198642438436_2_alg».proof.Proof.Gen.ReferenceIdeal.Run
import proofs.«146856_j31198642438436_2_alg».proof.Proof.Gen.ReferenceIdeal.Read
import proofs.«146856_j31198642438436_2_alg».proof.Proof.Bridge
import proofs.«146856_j31198642438436_2_alg».proof.Proof.RefValue
import proofs.«146856_j31198642438436_2_alg».proof.Proof.Finite
import Idealize.ShloMosaic.Adequacy
import Idealize.ShloMosaic.Init

noncomputable section

namespace Cert.Proof

open Idealize.ShloMosaic Idealize.SL.Sem Cert.Kernel

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end at the confusion array of the (agreeing, finite) arguments: the reference by reading its
    operations, the kernel by the three accumulated row sums and the expansion of the products over the reals. -/
theorem algebraic : Cert.algebraic_KernelIdeal_ReferenceIdeal := by
  intro m ρ m' ρ' hpre hagree
  refine ⟨fun c => Cert.Confusion.confusion (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Acc.run m ρ)
    obtain ⟨hP, hT⟩ := Cert.Confusion.Finite.real_of_pre _ _ (hpre c)
    rw [Cert.KernelIdeal.Acc.V_v0, Cert.KernelIdeal.Acc.V_v1]
    exact Cert.KernelIdeal.Acc.result_eq _ _ hP hT
  · refine (θ_run Cert.ReferenceIdeal.defs _ _).mono (fun _ h c => ⟨?_, (h c).2⟩)
      (Cert.ReferenceIdeal.Value.run (F := Ideal) m' ρ')
    rw [(h c).1, Cert.ReferenceIdeal.Read.val_main_v22_eq, Cert.ReferenceIdeal.RefValue.result_eq, (hagree c).1,
      (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
